-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16 : Shape := ⟨2, ![4096, 16]⟩
abbrev S16 : Shape := ⟨1, ![16]⟩
abbrev S_ : Shape := ⟨0, ![]⟩

class Facts : Prop where
  bcast_S_S4096x16 : S_.BroadcastsInDim S4096x16 (![] : Fin 0 → Fin S4096x16.rank)
  reducesTo_S4096x16_S_d0_1 : S4096x16.ReducesTo [0, 1] S_
  h_S_ : 0 < S_.numel
  bcast_S_S16 : S_.BroadcastsInDim S16 (![] : Fin 0 → Fin S16.rank)
  reducesTo_S16_S_d0 : S16.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S4096x16 .f32) (main_arg1 : FVec F S4096x16 .f32) (main_arg2 : FVec F S16 .f32) (main_arg3 : FVec F S_ .f32) : IVec S_ 1 :=
  let main_v0 : FVec F S4096x16 .f32 := Host.absf main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_c : IVec S_ 1 := constantI S_ 1 1#1
  let main_v3 : IVec S_ 1 := (fun x v => Host.reduce IntOp.andi x v reducesTo_S4096x16_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S4096x16 : Shape := ⟨2, ![4096, 16]⟩
abbrev S16 : Shape := ⟨1, ![16]⟩
abbrev S_ : Shape := ⟨0, ![]⟩
abbrev S1x16 : Shape := ⟨2, ![1, 16]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2048x16 : Shape := ⟨2, ![2048, 16]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 54
  | .vmem => 10
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S16, .f32⟩
  | .hbm, ⟨3, _⟩ => ⟨S_, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .i1⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x16, .f32⟩
  | .hbm, ⟨31, _⟩ => ⟨S4096x16, .f32⟩
  | .hbm, ⟨32, _⟩ => ⟨S4096x16, .f32⟩
  | .hbm, ⟨33, _⟩ => ⟨S1x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x16, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S1x4096, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S1x4096, .f32⟩
  | .hbm, ⟨50, _⟩ => ⟨S1x4096, .f32⟩
  | .hbm, ⟨51, _⟩ => ⟨S1x4096, .f32⟩
  | .hbm, ⟨52, _⟩ => ⟨S1x4096, .f32⟩
  | .hbm, ⟨53, _⟩ => ⟨S4096x4096, .f32⟩
  | .local _ .vmem, ⟨0, _⟩ => ⟨S2048x16, .f32⟩
  | .local _ .vmem, ⟨1, _⟩ => ⟨S2048x16, .f32⟩
  | .local _ .vmem, ⟨2, _⟩ => ⟨S2048x16, .f32⟩
  | .local _ .vmem, ⟨3, _⟩ => ⟨S2048x16, .f32⟩
  | .local _ .vmem, ⟨4, _⟩ => ⟨S2048x1, .f32⟩
  | .local _ .vmem, ⟨5, _⟩ => ⟨S2048x1, .f32⟩
  | .local _ .vmem, ⟨6, _⟩ => ⟨S1x2048, .f32⟩
  | .local _ .vmem, ⟨7, _⟩ => ⟨S1x2048, .f32⟩
  | .local _ .vmem, ⟨8, _⟩ => ⟨S2048x2048, .f32⟩
  | .local _ .vmem, ⟨9, _⟩ => ⟨S2048x2048, .f32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_call1_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_0 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S4096_d1 : S4096x16.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S_S4096x1 : S_.BroadcastsInDim S4096x1 (![] : Fin 0 → Fin S4096x1.rank)
  bcast_S_S1x4096 : S_.BroadcastsInDim S1x4096 (![] : Fin 0 → Fin S1x4096.rank)
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x2048 : S2048x1.Broadcasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  dot_S2048x16_S2048x16_S2048x2048_1_1_0_0_n_n_wf : DotDims.WF S2048x16 S2048x16 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S4096x16.size a
  hwx0_0 : ∀ i : grid0.Coords, EltTy.bits .f32 = 32 ∨ (Rect.block (s := S4096x16) S2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S4096x16.size a
  hwx0_1 : ∀ i : grid0.Coords, EltTy.bits .f32 = 32 ∨ (Rect.block (s := S4096x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S4096x4096.size a
  hwx0_4 : ∀ i : grid0.Coords, EltTy.bits .f32 = 32 ∨ (Rect.block (s := S4096x4096) S2048x2048.size (cc0_transform_4 i) (hinb0_4 i)).WholeWords (EltTy.packing .f32)

variable [Facts₀]

def dot_S2048x16_S2048x16_S2048x2048_1_1_0_0_n_n : DotDims S2048x16 S2048x16 S2048x2048 where
  lhsContracting := [1]
  rhsContracting := [1]
  lhsNonContracting := [0]
  rhsNonContracting := [0]
  lhsBatch := []
  rhsBatch := []
  wf := dot_S2048x16_S2048x16_S2048x2048_1_1_0_0_n_n_wf

abbrev win0_0 : Pipeline.Window sig grid0 :=
  Pipeline.Window.ofSpec (Memref.whole main_v5) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x16 : Shape := ⟨2, ![4096, 16]⟩
abbrev S16 : Shape := ⟨1, ![16]⟩
abbrev S_ : Shape := ⟨0, ![]⟩
abbrev S4096x1x16 : Shape := ⟨3, ![4096, 1, 16]⟩
abbrev S1x4096x16 : Shape := ⟨3, ![1, 4096, 16]⟩
abbrev S4096x4096x16 : Shape := ⟨3, ![4096, 4096, 16]⟩
abbrev S1x1x16 : Shape := ⟨3, ![1, 1, 16]⟩
abbrev S4096x4096 : Shape := ⟨2, ![4096, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096x16, .f32⟩
  | .hbm, ⟨2, _⟩ => ⟨S16, .f32⟩
  | .hbm, ⟨3, _⟩ => ⟨S_, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .i1⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i1⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x1x16, .f32⟩
  | .hbm, ⟨30, _⟩ => ⟨S1x4096x16, .f32⟩
  | .hbm, ⟨31, _⟩ => ⟨S4096x4096x16, .f32⟩
  | .hbm, ⟨32, _⟩ => ⟨S4096x4096x16, .f32⟩
  | .hbm, ⟨33, _⟩ => ⟨S4096x4096x16, .f32⟩
  | .hbm, ⟨34, _⟩ => ⟨S1x1x16, .f32⟩
  | .hbm, ⟨35, _⟩ => ⟨S4096x4096x16, .f32⟩
  | .hbm, ⟨36, _⟩ => ⟨S4096x4096x16, .f32⟩
  | .hbm, ⟨37, _⟩ => ⟨S4096x4096x16, .f32⟩
  | .hbm, ⟨38, _⟩ => ⟨S_, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_call1_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_cst_0 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S4096x16_S4096x1x16_0_2 : S4096x16.BroadcastsInDim S4096x1x16 (![0, 2] : Fin 2 → Fin S4096x1x16.rank)
  bcast_S4096x16_S1x4096x16_1_2 : S4096x16.BroadcastsInDim S1x4096x16 (![1, 2] : Fin 2 → Fin S1x4096x16.rank)
  bcast_S4096x1x16_S4096x4096x16_0_1_2 : S4096x1x16.BroadcastsInDim S4096x4096x16 (![0, 1, 2] : Fin 3 → Fin S4096x4096x16.rank)
  bcast_S1x4096x16_S4096x4096x16_0_1_2 : S1x4096x16.BroadcastsInDim S4096x4096x16 (![0, 1, 2] : Fin 3 → Fin S4096x4096x16.rank)
  bcast_S16_S1x1x16_2 : S16.BroadcastsInDim S1x1x16 (![2] : Fin 1 → Fin S1x1x16.rank)
  bcast_S1x1x16_S4096x4096x16_0_1_2 : S1x1x16.BroadcastsInDim S4096x4096x16 (![0, 1, 2] : Fin 3 → Fin S4096x4096x16.rank)
  reducesTo_S4096x4096x16_S4096x4096_d2 : S4096x4096x16.ReducesTo [2] S4096x4096
  h_S_ : 0 < S_.numel
  bcast_S_S4096x4096 : S_.BroadcastsInDim S4096x4096 (![] : Fin 0 → Fin S4096x4096.rank)

variable [Facts₀]

class Facts : Prop extends Facts₀ where

variable [Facts]
-- ==== Proof.LibDotNT.lean ====
/-
  A matrix product with the second operand transposed, read index by index over the extended reals.

  For the dimension numbers that contract the second axis of an M×K array with the second axis of an N×K array
  (no batch axis), the accelerator's matrix product into a zero accumulator is, at the exact values, the function
      (i, j) ↦ Σ_{k < K} l(i, k) · r(j, k).
-/
import Idealize.ShloMosaic.PureOps.Ideal.Laws
import Idealize.ShloMosaic.Lib.ValueIdx

noncomputable section

namespace Cert.LibDotNT

open Idealize.ShloMosaic Idealize.ShloMosaic.ValueIdx

/-- The dimension numbers of l · rᵀ: contract axis 1 of both operands; rows from l, columns from r's rows. -/
def nt (M N K : Nat)
    (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

/-- The product l · rᵀ of an M×K and an N×K array of extended reals, index by index. -/
def mmT {M N K : Nat} (l : (⟨2, ![M, K]⟩ : Shape).Idx → EReal) (r : (⟨2, ![N, K]⟩ : Shape).Idx → EReal) :
    (⟨2, ![M, N]⟩ : Shape).Idx → EReal :=
  fun j => ∑ k : Fin K, l (ix2 (j 0) k) * r (ix2 (j 1) k)

theorem mmT_apply {M N K : Nat} (l : (⟨2, ![M, K]⟩ : Shape).Idx → EReal) (r : (⟨2, ![N, K]⟩ : Shape).Idx → EReal)
    (i : Fin M) (j : Fin N) : mmT l r (ix2 i j) = ∑ k : Fin K, l (ix2 i k) * r (ix2 j k) := rfl

/-- The sum over the one-axis contraction index is the sum over k < K of l at (i, k) times r at (j, k). -/
theorem contr_sum (M N K : Nat)
    (wf : DotDims.WF (⟨2, ![M, K]⟩ : Shape) (⟨2, ![N, K]⟩ : Shape) (⟨2, ![M, N]⟩ : Shape) [1] [1] [0] [0] [] [])
    (l : (⟨2, ![M, K]⟩ : Shape).Idx → EReal) (r : (⟨2, ![N, K]⟩ : Shape).Idx → EReal)
    (j : (⟨2, ![M, N]⟩ : Shape).Idx) :
    ∑ q : (nt M N K wf).contr.Idx, l ((nt M N K wf).lhsIdx j q) * r ((nt M N K wf).rhsIdx j q) = mmT l r j := by
  unfold mmT
  rw [← Equiv.sum_comp (contrEquiv1 (nt M N K wf) K rfl rfl).symm]
  refine Finset.sum_congr rfl fun k _ => ?_
  have hk := contrEquiv1_symm_val (nt M N K wf) K rfl rfl k
  have el : (nt M N K wf).lhsIdx j ((contrEquiv1 (nt M N K wf) K rfl rfl).symm k) = ix2 (j 0) k :=
    funext fun a => Fin.ext (by
      match a with
      | ⟨0, _⟩ => rfl
      | ⟨1, _⟩ => exact ((nt M N K wf).lhsIdx_val_of_single (cl := 1) rfl j _).trans hk)
  have er : (nt M N K wf).rhsIdx j ((contrEquiv1 (nt M N K wf) K rfl rfl).symm k) = ix2 (j 1) k :=
    funext fun a => Fin.ext (by
      match a with
      | ⟨0, _⟩ => rfl
      | ⟨1, _⟩ => exact ((nt M N K wf).rhsIdx_val_of_single (cr := 1) rfl j _).trans hk)
  rw [el, er]
  rfl

/-- The accelerator's matrix product into the zero accumulator, at the exact values, is l · rᵀ. -/
theorem matmul_zero {M N K : Nat} {φ₁ φ₂ : FTy}
    (wf : DotDims.WF (⟨2, ![M, K]⟩ : Shape) (⟨2, ![N, K]⟩ : Shape) (⟨2, ![M, N]⟩ : Shape) [1] [1] [0] [0] [] [])
    (prec : Option ContractPrecision) (l : FVec Ideal ⟨2, ![M, K]⟩ φ₁) (r : FVec Ideal ⟨2, ![N, K]⟩ φ₂) :
    matmul (F := Ideal) (nt M N K wf) prec l r (constant (F := Ideal) ⟨2, ![M, N]⟩ .f32 0x00000000#32) = mmT l r :=
  funext fun j => (Ideal.matmul_constant_zero_apply (nt M N K wf) prec l r j).trans (contr_sum M N K wf l r j)

end Cert.LibDotNT

end
-- ==== Proof.LibHostRead.lean ====
/-
  Small layout operations read at an index: a scalar broadcast everywhere; a vector made a column, a column spread
  over the columns of a matrix, a vector made a row, a row spread over the rows of a matrix; a one-column matrix
  flattened; a column spread over a matrix by the accelerator's broadcast; and a matrix assembled from three blocks
  of columns.  Each reads the operand at the evident index.
-/
import Idealize.ShloMosaic.PureOps.Ideal
import Idealize.ShloMosaic.Lib.ValueIdx
import Idealize.ShloMosaic.Lib.ValueLayout
import Idealize.ShloMosaic.Lib.Pipeline.Value

noncomputable section

namespace Cert.LibHostRead

open Idealize.ShloMosaic Idealize.ShloMosaic.ValueIdx

variable {α : Type}

/-- A scalar broadcast to any shape reads the scalar everywhere. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` made a column `[a, 1]` reads, at `(i, u)`, the vector at `i`. -/
theorem bcast_col_apply {a : Nat} (dims : Fin 1 → Fin 2) (hd : dims 0 = 0)
    (h : (⟨1, ![a]⟩ : Shape).BroadcastsInDim ⟨2, ![a, 1]⟩ dims)
    (x : (⟨1, ![a]⟩ : Shape).Idx → α) (i : Fin a) (u : Fin 1) :
    broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` spread over `[a, b]` reads, at `(i, c)`, the column at `i`. -/
theorem bcast_col_wide_apply {a b : Nat} (dims : Fin 2 → Fin 2) (hd0 : dims 0 = 0) (hd1 : dims 1 = 1)
    (h : (⟨2, ![a, 1]⟩ : Shape).BroadcastsInDim ⟨2, ![a, b]⟩ dims)
    (x : (⟨2, ![a, 1]⟩ : Shape).Idx → α) (i : Fin a) (c : Fin b) :
    broadcastInDim ⟨2, ![a, b]⟩ dims h x (ix2 i c) = x (ix2 i (0 : Fin 1)) := by
  refine broadcastInDim_apply dims h x (ix2 i c) (ix2 i (0 : Fin 1)) fun ax => ?_
  match ax with
  | ⟨0, _⟩ =>
    show i.val = if a = 1 then 0 else ((ix2 i c : (⟨2, ![a, b]⟩ : Shape).Idx) (dims 0)).val
    rw [hd0]
    split
    · have := i.isLt; omega
    · rfl
  | ⟨1, _⟩ =>
    show (0 : ℕ) = if (1 : ℕ) = 1 then 0 else _
    rw [if_pos rfl]

/-- A vector `[b]` made a row `[1, b]` reads, at `(u, c)`, the vector at `c`. -/
theorem bcast_row_apply {b : Nat} (dims : Fin 1 → Fin 2) (hd : dims 0 = 1)
    (h : (⟨1, ![b]⟩ : Shape).BroadcastsInDim ⟨2, ![1, b]⟩ dims)
    (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` spread over `[a, b]` reads, at `(i, c)`, the row at `c`. -/
theorem bcast_row_wide_apply {a b : Nat} (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (i : Fin a) (c : Fin b) :
    broadcastInDim ⟨2, ![a, b]⟩ dims h x (ix2 i c) = x (ix2 (0 : Fin 1) c) := by
  refine broadcastInDim_apply dims h x (ix2 i c) (ix2 (0 : Fin 1) c) fun ax => ?_
  match ax with
  | ⟨0, _⟩ =>
    show (0 : ℕ) = if (1 : ℕ) = 1 then 0 else _
    rw [if_pos rfl]
  | ⟨1, _⟩ =>
    show c.val = if b = 1 then 0 else ((ix2 i c : (⟨2, ![a, b]⟩ : Shape).Idx) (dims 1)).val
    rw [hd1]
    split
    · have := c.isLt; omega
    · rfl

/-- A one-column matrix `[a, 1]` flattened to `[a]` reads, at `i`, the matrix at `(i, 0)`. -/
theorem shapeCast_a1_a_apply {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The accelerator's broadcast of a column `[a, 1]` to `[a, b]` reads, at `(i, c)`, the column at `i`. -/
theorem broadcastTo_a1_ab_apply {a b : Nat} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

end Cert.LibHostRead

end
-- ==== Proof.Payload.lean ====
/-
  What the kernel body stores, index by index: entry (p, q) of the 2048×2048 tile is
      exp( Σ_k a(p, k) · b(q, k)  +  g(p, 0)  +  h(0, q) )
  for the tile's two 2048×16 blocks of scaled points a, b, the column g of row terms and the row h of column
  terms: a matrix product with the second operand transposed, then the column and the row spread over the tile.
-/
import proofs.«172599_j39264591020613_2_alg».proof.Proof.Gen.KernelIdeal.Skeleton
import proofs.«172599_j39264591020613_2_alg».proof.Proof.LibDotNT
import proofs.«172599_j39264591020613_2_alg».proof.Proof.LibHostRead
import Idealize.ShloMosaic.Lib.ValueLayout
import Idealize.ShloMosaic.Lib.Pipeline.Value

noncomputable section

namespace Cert.KernelPayload

open Cert.KernelIdeal Cert.KernelIdeal.Gen Idealize.ShloMosaic Idealize.ShloMosaic.ValueIdx

/-- The body's dimension numbers are those of a product with the second operand transposed. -/
theorem dims_eq : dot_S2048x16_S2048x16_S2048x2048_1_1_0_0_n_n
    = Cert.LibDotNT.nt 2048 2048 16 Facts₀.dot_S2048x16_S2048x16_S2048x2048_1_1_0_0_n_n_wf := rfl

/-- The stored tile at (p, q). -/
theorem pay_apply (a b : FVec Ideal S2048x16 .f32) (g : FVec Ideal S2048x1 .f32) (h : FVec Ideal S1x2048 .f32)
    (p q : Fin 2048) :
    k0_pay1 (F := Ideal) a b g h (ix2 p q)
      = Ideal.exp ((∑ k : Fin 16, a (ix2 p k) * b (ix2 q k)) + g (ix2 p (0 : Fin 1)) + h (ix2 (0 : Fin 1) q)) := by
  unfold k0_pay1
  show Ideal.exp ((matmul dot_S2048x16_S2048x16_S2048x2048_1_1_0_0_n_n (some .fp32)
        (shapeCast S2048x16 a Facts₀.shapeCasts_S2048x16_S2048x16) (shapeCast S2048x16 b Facts₀.shapeCasts_S2048x16_S2048x16)
        (constant (F := Ideal) S2048x2048 .f32 0x00000000#32)) (ix2 p q)
      + broadcastTo S2048x2048 (shapeCast S2048x1 g Facts₀.shapeCasts_S2048x1_S2048x1) Facts₀.broadcasts_S2048x1_S2048x2048 (ix2 p q)
      + broadcastTo S2048x2048 (shapeCast S1x2048 h Facts₀.shapeCasts_S1x2048_S1x2048) Facts₀.broadcasts_S1x2048_S2048x2048 (ix2 p q)) = _
  rw [shapeCast_self, shapeCast_self, shapeCast_self, shapeCast_self, dims_eq, Cert.LibDotNT.matmul_zero,
    Cert.LibDotNT.mmT_apply, Cert.LibHostRead.broadcastTo_a1_ab_apply, broadcastTo_1b_ab_apply]

end Cert.KernelPayload

end
-- ==== Proof.LibRowRead.lean ====
/-
  Reading row-wise operations of a two-dimensional array index by index.

  A sum over the second axis of an [a, b] array, taken by the accelerator's lane reduction or by the host's
  reduction, is at row p the sum over k < b of the array at (p, k). A vector [a] cast to the column [a, 1] reads at
  (p, 0) the vector at p. Two arrays of one shape laid side by side along the second axis (or one above the other
  along the first) read, in the first piece's range, the first piece, and past it the second piece shifted back.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Lib.RowRead

open Idealize.ShloMosaic Idealize.ShloMosaic.ValueIdx

variable {α : Type}

/-- The source index of a reduction over the second axis: row p, coordinate k. -/
theorem lift_row {a b : ℕ} (h : (⟨2, ![a, b]⟩ : Shape).Reduces [(1 : Fin 2)] ⟨1, ![a]⟩) (p : Fin a) (k : Fin b) :
    h.lift (ix1 p) k = ix2 p k := by
  funext c; apply Fin.ext
  match c with
  | ⟨0, h0⟩ =>
    show h.liftVal (ix1 p) k.val ⟨0, h0⟩ = p.val
    unfold Shape.Reduces.liftVal
    split
    · next hc => exact absurd hc Nat.zero_ne_one
    · split
      · rfl
      · next hlt => exact absurd Nat.zero_lt_one hlt
  | ⟨1, h1⟩ =>
    show h.liftVal (ix1 p) k.val ⟨1, h1⟩ = k.val
    unfold Shape.Reduces.liftVal
    split
    · rfl
    · next hc => exact absurd rfl hc

/-- The accelerator's lane sum at row p. -/
theorem lane_sum {a b : ℕ} (src : FVec Ideal ⟨2, ![a, b]⟩ .f32) (h : (⟨2, ![a, b]⟩ : Shape).Reduces [(1 : Fin 2)] ⟨1, ![a]⟩)
    (hφ : FKind.Formats .f32) (hacc : (0x00000000#32 : BitVec FTy.f32.bits) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

/-- The host's row sum at row p: the initial value plus the row's sum. -/
theorem host_row_sum {a b : ℕ} {u : Shape} (x : FVec Ideal ⟨2, ![a, b]⟩ .f32) (init : u.Idx → Ideal .f32)
    (h' : (⟨2, ![a, b]⟩ : Shape).ReducesTo [(1 : Fin 2)] ⟨1, ![a]⟩) (hu : 0 < u.numel)
    (h : (⟨2, ![a, b]⟩ : Shape).Reduces [(1 : Fin 2)] ⟨1, ![a]⟩) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (fun z => init (Shape.Idx.first hu) + z) (Finset.sum_congr rfl fun k _ => congrArg x (lift_row h p k))))

/-- A vector cast to a column. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- Two [a, b] arrays side by side: in the first b columns, the first. -/
theorem concat_cols_left {a b : ℕ} (x y : (⟨2, ![a, b]⟩ : Shape).Idx → α)
    (h : Shape.Concatenates [(⟨2, ![a, b]⟩ : Shape), ⟨2, ![a, b]⟩] ⟨2, ![a, b + b]⟩ (1 : Fin 2)) (p : Fin a) (k : Fin b) :
    concatenate ⟨2, ![a, b + b]⟩ (1 : Fin 2) [⟨⟨2, ![a, b]⟩, x⟩, ⟨⟨2, ![a, b]⟩, y⟩] h (ix2 p (Fin.castAdd b k)) = x (ix2 p k) :=
  concatenate_ofFn_apply (t := ⟨2, ![a, b + b]⟩) (s₁ := ⟨2, ![a, b]⟩) (1 : Fin 2) (N := 2) ![x, y] h rfl b rfl (ix2 p (Fin.castAdd b k))
    (0 : Fin 2) (Nat.div_eq_of_lt k.isLt) (ix2 p k) (Nat.mod_eq_of_lt k.isLt).symm
    (fun c hc => by match c with | ⟨0, _⟩ => rfl | ⟨1, _⟩ => exact absurd rfl hc)

/-- … and in the last b columns, the second. -/
theorem concat_cols_right {a b : ℕ} (x y : (⟨2, ![a, b]⟩ : Shape).Idx → α)
    (h : Shape.Concatenates [(⟨2, ![a, b]⟩ : Shape), ⟨2, ![a, b]⟩] ⟨2, ![a, b + b]⟩ (1 : Fin 2)) (p : Fin a) (k : Fin b) :
    concatenate ⟨2, ![a, b + b]⟩ (1 : Fin 2) [⟨⟨2, ![a, b]⟩, x⟩, ⟨⟨2, ![a, b]⟩, y⟩] h (ix2 p (Fin.natAdd b k)) = y (ix2 p k) :=
  concatenate_ofFn_apply (t := ⟨2, ![a, b + b]⟩) (s₁ := ⟨2, ![a, b]⟩) (1 : Fin 2) (N := 2) ![x, y] h rfl b rfl (ix2 p (Fin.natAdd b k))
    (1 : Fin 2) (by show (b + k.val) / b = 1; have := k.isLt; rw [Nat.add_div_left _ (by omega), Nat.div_eq_of_lt k.isLt])
    (ix2 p k) (by show k.val = (b + k.val) % b; rw [Nat.add_mod_left, Nat.mod_eq_of_lt k.isLt])
    (fun c hc => by match c with | ⟨0, _⟩ => rfl | ⟨1, _⟩ => exact absurd rfl hc)

/-- Two [a, b] arrays one above the other: in the first a rows, the first. -/
theorem concat_rows_top {a b : ℕ} (x y : (⟨2, ![a, b]⟩ : Shape).Idx → α)
    (h : Shape.Concatenates [(⟨2, ![a, b]⟩ : Shape), ⟨2, ![a, b]⟩] ⟨2, ![a + a, b]⟩ (0 : Fin 2)) (p : Fin a) (k : Fin b) :
    concatenate ⟨2, ![a + a, b]⟩ (0 : Fin 2) [⟨⟨2, ![a, b]⟩, x⟩, ⟨⟨2, ![a, b]⟩, y⟩] h (ix2 (Fin.castAdd a p) k) = x (ix2 p k) :=
  concatenate_ofFn_apply (t := ⟨2, ![a + a, b]⟩) (s₁ := ⟨2, ![a, b]⟩) (0 : Fin 2) (N := 2) ![x, y] h rfl a rfl (ix2 (Fin.castAdd a p) k)
    (0 : Fin 2) (Nat.div_eq_of_lt p.isLt) (ix2 p k) (Nat.mod_eq_of_lt p.isLt).symm
    (fun c hc => by match c with | ⟨0, _⟩ => exact absurd rfl hc | ⟨1, _⟩ => rfl)

/-- … and in the last a rows, the second. -/
theorem concat_rows_bottom {a b : ℕ} (x y : (⟨2, ![a, b]⟩ : Shape).Idx → α)
    (h : Shape.Concatenates [(⟨2, ![a, b]⟩ : Shape), ⟨2, ![a, b]⟩] ⟨2, ![a + a, b]⟩ (0 : Fin 2)) (p : Fin a) (k : Fin b) :
    concatenate ⟨2, ![a + a, b]⟩ (0 : Fin 2) [⟨⟨2, ![a, b]⟩, x⟩, ⟨⟨2, ![a, b]⟩, y⟩] h (ix2 (Fin.natAdd a p) k) = y (ix2 p k) :=
  concatenate_ofFn_apply (t := ⟨2, ![a + a, b]⟩) (s₁ := ⟨2, ![a, b]⟩) (0 : Fin 2) (N := 2) ![x, y] h rfl a rfl (ix2 (Fin.natAdd a p) k)
    (1 : Fin 2) (by show (a + p.val) / a = 1; have := p.isLt; rw [Nat.add_div_left _ (by omega), Nat.div_eq_of_lt p.isLt])
    (ix2 p k) (by show p.val = (a + p.val) % a; rw [Nat.add_mod_left, Nat.mod_eq_of_lt p.isLt])
    (fun c hc => by match c with | ⟨0, _⟩ => exact absurd rfl hc | ⟨1, _⟩ => rfl)

end Cert.Lib.RowRead

end
-- ==== Proof.HostTerms.lean ====
/-
  What the host computes before the tiled region, as functions of the argument arrays, each read at an index.

  With s the length scales: the scaled points y(p, k) = x(p, k) / s(k); the column of row terms
  g(p, 0) = -½ · (0 + Σ_k y(p, k)²); and the row of column terms h(0, q) = -½ · (0 + Σ_k y'(q, k)²) + log v.
-/
import proofs.«172599_j39264591020613_2_alg».proof.Proof.Gen.KernelIdeal
import proofs.«172599_j39264591020613_2_alg».proof.Proof.LibHostRead
import proofs.«172599_j39264591020613_2_alg».proof.Proof.LibRowRead
import Idealize.ShloMosaic.Lib.ValueLayout
import Idealize.ShloMosaic.Lib.IdealHost

noncomputable section

namespace Cert.HostTerms

open Cert.KernelIdeal Cert.KernelIdeal.Gen Idealize.ShloMosaic Idealize.ShloMosaic.ValueIdx

variable {F : FTy → Type} [FloatOps F]

/-- The points divided, coordinate by coordinate, by the length scales (spread over the rows). -/
def scaled (x : FVec F S4096x16 .f32) (s : FVec F S16 .f32) : FVec F S4096x16 .f32 :=
  Host.divf x (broadcastInDim S4096x16 ![0, 1] bcast_S1x16_S4096x16_0_1 (broadcastInDim S1x16 ![1] bcast_S16_S1x16_1 s))

/-- The squared norms of the rows, as a vector: zero plus the row sums of the squares. -/
def sqNorm (y : FVec F S4096x16 .f32) : FVec F S4096 .f32 :=
  Host.reduceAdd (mulf y y) (constant S_ .f32 0x00000000#32) reducesTo_S4096x16_S4096_d1 h_S_

/-- The column of row terms: minus one half of the squared norms. -/
def colTerm (y : FVec F S4096x16 .f32) : FVec F S4096x1 .f32 :=
  mulf (broadcastInDim S4096x1 ![] bcast_S_S4096x1 (constant S_ .f32 0xBF000000#32))
    (broadcastInDim S4096x1 ![0] bcast_S4096_S4096x1_0 (sqNorm y))

/-- The row of column terms: minus one half of the squared norms, laid as a row, plus the scalar `lv` everywhere. -/
def rowTerm (y : FVec F S4096x16 .f32) (lv : FVec F S_ .f32) : FVec F S1x4096 .f32 :=
  addf (mulf (broadcastInDim S1x4096 ![] bcast_S_S1x4096 (constant S_ .f32 0xBF000000#32))
      (transpose S1x4096 [1, 0] (broadcastInDim S4096x1 ![0] bcast_S4096_S4096x1_0 (sqNorm y)) transposes_S4096x1_S1x4096_1_0))
    (broadcastInDim S1x4096 ![] bcast_S_S1x4096 lv)

/-- A scaled point's coordinate. -/
theorem scaled_apply (x : FVec Ideal S4096x16 .f32) (s : FVec Ideal S16 .f32) (p : Fin 4096) (k : Fin 16) :
    scaled x s (ix2 p k) = Ideal.div (x (ix2 p k)) (s (ix1 k)) := by
  unfold scaled
  rw [hostDivf_apply, Cert.LibHostRead.bcast_row_wide_apply _ rfl rfl, Cert.LibHostRead.bcast_row_apply _ rfl]

/-- A row's squared norm. -/
theorem sqNorm_apply (y : FVec Ideal S4096x16 .f32) (p : Fin 4096) :
    sqNorm y (ix1 p) = Ideal.ofBits .f32 0x00000000#32 + ∑ k : Fin 16, y (ix2 p k) * y (ix2 p k) := by
  unfold sqNorm
  rw [Cert.Lib.RowRead.host_row_sum _ _ _ _ (by decide)]
  rfl

/-- A row term. -/
theorem colTerm_apply (y : FVec Ideal S4096x16 .f32) (p : Fin 4096) :
    colTerm y (ix2 p (0 : Fin 1))
      = Ideal.ofBits .f32 0xBF000000#32 * (Ideal.ofBits .f32 0x00000000#32 + ∑ k : Fin 16, y (ix2 p k) * y (ix2 p k)) := by
  unfold colTerm
  rw [mulf_apply, Cert.LibHostRead.bcast_scalar_apply, Cert.LibHostRead.bcast_col_apply _ rfl, sqNorm_apply]
  rfl

/-- A column term. -/
theorem rowTerm_apply (y : FVec Ideal S4096x16 .f32) (lv : FVec Ideal S_ .f32) (q : Fin 4096) :
    rowTerm y lv (ix2 (0 : Fin 1) q)
      = Ideal.ofBits .f32 0xBF000000#32 * (Ideal.ofBits .f32 0x00000000#32 + ∑ k : Fin 16, y (ix2 q k) * y (ix2 q k))
        + lv ix0 := by
  unfold rowTerm
  rw [addf_apply, mulf_apply, Cert.LibHostRead.bcast_scalar_apply, Cert.LibHostRead.bcast_scalar_apply,
    transpose_ix2_apply, Cert.LibHostRead.bcast_col_apply _ rfl, sqNorm_apply]
  rfl

end Cert.HostTerms

end
-- ==== Proof.LibERealFin.lean ====
/-
  Finite sums and maxima of real numbers, read inside the extended reals.

  The extended reals carry the reals as a sub-structure closed under finite sums, finite maxima, products,
  exponentials and quotients by a nonzero real; each lemma below says that one such operation, applied to
  (coerced) real numbers, yields the (coerced) real result.
-/
import Mathlib
import Idealize.ShloMosaic.PureOps.Ideal

namespace Cert.LibERealFin

open Finset Idealize.ShloMosaic

/-- A finite sum of reals, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of two reals, taken in the extended reals, is the real maximum. -/
theorem max_coe (x y : ℝ) : max (x : EReal) (y : EReal) = ((max x y : ℝ) : EReal) :=
  (EReal.coe_strictMono.monotone.map_max (a := x) (b := y)).symm

/-- The bottom element is neutral for the maximum with a real. -/
theorem max_bot_coe (x : ℝ) : max (⊥ : EReal) (x : EReal) = (x : EReal) :=
  max_eq_right bot_le

/-- The bottom element is neutral for the maximum, on the right. -/
theorem max_coe_bot (x : ℝ) : max (x : EReal) (⊥ : EReal) = (x : EReal) :=
  max_eq_left bot_le

/-- The supremum of a nonempty finite family of reals, taken in the extended reals, is the real supremum. -/
theorem sup_coe {ι : Type*} (s : Finset ι) (hs : s.Nonempty) (f : ι → ℝ) :
    s.sup (fun i => ((f i : ℝ) : EReal)) = ((s.sup' hs f : ℝ) : EReal) := by
  rw [← Finset.sup'_eq_sup hs]
  exact (Finset.comp_sup'_eq_sup'_comp hs (fun x : ℝ => (x : EReal)) (fun x y => (max_coe x y).symm)).symm

/-- Folding the maximum from the bottom element over a finite family is its supremum. -/
theorem fold_max_eq_sup {ι : Type*} (s : Finset ι) (g : ι → EReal) :
    s.fold max (⊥ : EReal) g = s.sup g := by
  classical
  induction s using Finset.induction_on with
  | empty => simp
  | insert a s ha ih => rw [Finset.fold_insert ha, Finset.sup_insert, ih]

/-- Folding the maximum from the bottom element over a nonempty finite family of reals gives the real supremum. -/
theorem fold_max_coe {ι : Type*} (s : Finset ι) (hs : s.Nonempty) (f : ι → ℝ) :
    s.fold max (⊥ : EReal) (fun i => ((f i : ℝ) : EReal)) = ((s.sup' hs f : ℝ) : EReal) := by
  rw [fold_max_eq_sup, sup_coe s hs f]

/-- The quotient of a real by a nonzero real, taken in the extended reals, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The exponential of a real, taken in the extended reals, is the real exponential. -/
theorem exp_coe (x : ℝ) : Ideal.exp (x : EReal) = ((Real.exp x : ℝ) : EReal) := rfl

/-- The exponential of a difference of reals. -/
theorem exp_coe_sub (x y : ℝ) :
    Ideal.exp ((x : EReal) - (y : EReal)) = ((Real.exp (x - y) : ℝ) : EReal) := by
  rw [← EReal.coe_sub]; rfl

/-- The bottom element minus a real is the bottom element. -/
theorem bot_sub_coe (x : ℝ) : (⊥ : EReal) - (x : EReal) = ⊥ := by
  rw [sub_eq_add_neg, EReal.bot_add]

/-- The exponential of the bottom element minus a real is zero. -/
theorem exp_bot_sub_coe (x : ℝ) : Ideal.exp ((⊥ : EReal) - (x : EReal)) = 0 := by
  rw [bot_sub_coe]; rfl

/-- A vanishing product added on the left changes nothing. -/
theorem zero_mul_zero_add (x : EReal) : (0 : EReal) * 0 + x = x := by
  rw [zero_mul, zero_add]

/-- A zero factor on the left, added on the left, changes nothing. -/
theorem zero_mul_add (y x : EReal) : (0 : EReal) * y + x = x := by
  rw [zero_mul, zero_add]

/-- The product of two reals, taken in the extended reals, is the real product. -/
theorem mul_coe (x y : ℝ) : (x : EReal) * (y : EReal) = ((x * y : ℝ) : EReal) :=
  (EReal.coe_mul x y).symm

/-- The sum of two reals, taken in the extended reals, is the real sum. -/
theorem add_coe (x y : ℝ) : (x : EReal) + (y : EReal) = ((x + y : ℝ) : EReal) :=
  (EReal.coe_add x y).symm

/-- The difference of two reals, taken in the extended reals, is the real difference. -/
theorem sub_coe (x y : ℝ) : (x : EReal) - (y : EReal) = ((x - y : ℝ) : EReal) :=
  (EReal.coe_sub x y).symm

/-- A sum over a finite type of reals, taken in the extended reals, is the real sum. -/
theorem coe_sum_univ {ι : Type*} [Fintype ι] (f : ι → ℝ) :
    (∑ i, ((f i : ℝ) : EReal)) = ((∑ i, f i : ℝ) : EReal) :=
  coe_sum Finset.univ f

end Cert.LibERealFin
-- ==== Proof.RbfLaw.lean ====
/-
  The squared-exponential covariance, two ways.

  For points a, b in a D-dimensional space, length scales σ (nonzero) and an amplitude ν > 0,
      exp(-½ · Σ_k ((a_k - b_k)/σ_k)²) · ν
    = exp( Σ_k (a_k/σ_k)(b_k/σ_k) + (-½) Σ_k (a_k/σ_k)² + ((-½) Σ_k (b_k/σ_k)² + log ν) ),
  because ‖u - w‖² = ‖u‖² - 2 u·w + ‖w‖² and exp(E + log ν) = exp(E) · ν.  Both sides are stated on the
  extended reals over coerced real entries, in the spelling of the two programs (a zero initial value in each
  sum, the quotient as the extended reals' division).

  The positive parameters are softplus values: softplus(r) = max(r, 0) + log(1 + exp(-|r|)), written with the
  never-firing guard "r - 0 ≠ r - 0" in front, is a positive real for every real r.
-/
import proofs.«172599_j39264591020613_2_alg».proof.Proof.LibERealFin

noncomputable section

namespace Cert.RbfLaw

open Idealize.ShloMosaic Finset

/-- The f32 word 0xBF000000 is the real number -1/2. -/
theorem neg_half : Ideal.ofBits .f32 0xBF000000#32 = (((-(1 / 2) : ℝ)) : EReal) := by
  simp [Ideal.ofBits, Ideal.ieee, -EReal.coe_mul, -EReal.coe_neg]; norm_num

/-- One element of softplus as the programs spell it; `c` is the zero the spelling subtracts, adds and compares with. -/
def spElt (c a : EReal) : EReal :=
  Scalar.select (Ideal.cmp .une (a - c) (a - c)) (a + c)
    (max a c + Ideal.log1p (Ideal.exp (-(max (a - c) (-(a - c))))))

/-- softplus of a real number is a positive real number. -/
theorem spElt_pos (r : ℝ) : ∃ p : ℝ, 0 < p ∧ spElt 0 (r : EReal) = (p : EReal) := by
  have hpos : 0 < 1 + Real.exp (-(max r (-r))) := by
    linarith [Real.exp_pos (-(max r (-r)))]
  refine ⟨max r 0 + Real.log (1 + Real.exp (-(max r (-r)))), ?_, ?_⟩
  · have h1 : 0 < Real.log (1 + Real.exp (-(max r (-r)))) :=
      Real.log_pos (by linarith [Real.exp_pos (-(max r (-r)))])
    have h2 : 0 ≤ max r 0 := le_max_right _ _
    linarith
  · -- the guard compares a value with itself, so the second branch is taken
    have hc : Ideal.cmp .une ((r : EReal) - 0) ((r : EReal) - 0) = 0#1 := by
      simp [Ideal.cmp]
    unfold spElt
    rw [hc]
    unfold Scalar.select
    rw [if_neg (by decide), sub_zero]
    -- every intermediate value is a real number
    have hmax0 : max (r : EReal) 0 = ((max r 0 : ℝ) : EReal) := by
      rw [← EReal.coe_zero, LibERealFin.max_coe]
    rw [hmax0, ← EReal.coe_neg, LibERealFin.max_coe, ← EReal.coe_neg, LibERealFin.exp_coe]
    unfold Ideal.log1p
    rw [← EReal.coe_one, LibERealFin.add_coe, Ideal.log_coe, if_neg (not_le.mpr hpos),
      LibERealFin.add_coe]

/-- The law, on coerced reals, in the two programs' spellings: the kernel's exponent (product term, the two
    half squared norms, the logarithm of the amplitude) against the reference's (half the squared scaled
    distance, times the amplitude). -/
theorem rbf_law {ι : Type*} [Fintype ι] (a b σ : ι → ℝ) (ν : ℝ) (hσ : ∀ k, σ k ≠ 0) (hν : 0 < ν)
    (mh z : EReal) (hmh : mh = (((-(1 / 2) : ℝ)) : EReal)) (hz : z = 0) :
    Ideal.exp ((∑ k, Ideal.div (a k : EReal) (σ k : EReal) * Ideal.div (b k : EReal) (σ k : EReal))
        + mh * (z + ∑ k, Ideal.div (a k : EReal) (σ k : EReal) * Ideal.div (a k : EReal) (σ k : EReal))
        + (mh * (z + ∑ k, Ideal.div (b k : EReal) (σ k : EReal) * Ideal.div (b k : EReal) (σ k : EReal))
            + Ideal.log (ν : EReal)))
      = Ideal.exp (mh * (z + ∑ k, Ideal.div ((a k : EReal) - (b k : EReal)) (σ k : EReal)
            * Ideal.div ((a k : EReal) - (b k : EReal)) (σ k : EReal))) * (ν : EReal) := by
  subst hmh hz
  have hd : ∀ (x : ℝ) (k : ι), Ideal.div (x : EReal) (σ k : EReal) = ((x / σ k : ℝ) : EReal) :=
    fun x k => LibERealFin.div_coe_coe x (hσ k)
  -- read every quotient, product and sum as a real number
  simp only [← EReal.coe_sub, hd, LibERealFin.mul_coe, LibERealFin.coe_sum_univ, zero_add]
  rw [Ideal.log_coe, if_neg (not_le.mpr hν)]
  simp only [LibERealFin.add_coe, LibERealFin.mul_coe, LibERealFin.exp_coe]
  -- the squared scaled distance, expanded termwise
  have hS : (∑ k, (a k - b k) / σ k * ((a k - b k) / σ k))
      = (∑ k, a k / σ k * (a k / σ k)) - 2 * (∑ k, a k / σ k * (b k / σ k))
        + ∑ k, b k / σ k * (b k / σ k) := by
    rw [Finset.mul_sum, ← Finset.sum_sub_distrib, ← Finset.sum_add_distrib]
    refine Finset.sum_congr rfl (fun k _ => ?_)
    ring
  have hE : (∑ k, a k / σ k * (b k / σ k)) + -(1 / 2) * (∑ k, a k / σ k * (a k / σ k))
        + (-(1 / 2) * (∑ k, b k / σ k * (b k / σ k)) + Real.log ν)
      = -(1 / 2) * (∑ k, (a k - b k) / σ k * ((a k - b k) / σ k)) + Real.log ν := by
    rw [hS]; ring
  rw [hE, Real.exp_add, Real.exp_log hν]

end Cert.RbfLaw

end
-- ==== Proof.LibReal.lean ====
/-
  Extended reals that are real numbers. The finite operations keep them so: sums, differences, products, maxima, finite
  sums, the quotient by a nonzero real, and the reciprocal square root of a positive real. These are the facts that let
  a law of real arithmetic (distributivity, cancelling) be used on values a program computes from finite inputs.
-/
import Idealize.ShloMosaic.PureOps.Ideal

noncomputable section

namespace Cert.Lib.Real

open Idealize.ShloMosaic Finset

/-- The extended real is a real number. -/
def IsReal (x : EReal) : Prop := ∃ r : ℝ, x = (r : EReal)

/-- Every entry of the family is a real number. -/
def AllReal {ι : Type*} (x : ι → EReal) : Prop := ∀ i, IsReal (x i)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The quotient of a real by a nonzero real is a real. -/
theorem IsReal.div_coe {x : EReal} (hx : IsReal x) {n : ℝ} (hn : n ≠ 0) : IsReal (Ideal.div x (n : EReal)) := by
  obtain ⟨a, rfl⟩ := hx
  rw [Ideal.div_coe hn, ← EReal.coe_mul]; exact ⟨_, rfl⟩

/-- The reciprocal square root of a positive real is a real. -/
theorem isReal_rsqrt_of_pos {r : ℝ} (hr : 0 < r) : IsReal (Ideal.rsqrt (r : EReal)) := by
  rw [Ideal.rsqrt_coe, if_neg (not_lt.mpr hr.le), if_neg hr.ne']; exact ⟨_, rfl⟩

/-- Reading a family through any map of indices keeps its entries real. -/
theorem AllReal.comp {ι κ : Type*} {x : ι → EReal} (hx : AllReal x) (g : κ → ι) : AllReal fun j => x (g j) :=
  fun j => hx (g j)

end Cert.Lib.Real

end
-- ==== Proof.Spec.lean ====
/-
  The squared-exponential covariance matrix of two sets of 4096 points in 16 dimensions, in the two arrangements
  the programs compute, as functions of the points x, xx, the length scales s and the amplitude v:

    direct    K(p, q) = exp(-½ · Σ_k ((x(p,k) - xx(q,k)) / s(k))²) · v
    expanded  K(p, q) = exp( Σ_k (x(p,k)/s(k)) (xx(q,k)/s(k)) + (-½) Σ_k (x(p,k)/s(k))²
                              + ((-½) Σ_k (xx(q,k)/s(k))² + log v) )

  They agree when every point coordinate is a real number, every length scale a positive real and the amplitude a
  positive real.
-/
import proofs.«172599_j39264591020613_2_alg».proof.Proof.RbfLaw
import proofs.«172599_j39264591020613_2_alg».proof.Proof.LibReal
import Idealize.ShloMosaic.Lib.ValueIdx
import Idealize.ShloMosaic.PureOps.Ideal.Laws

noncomputable section

namespace Cert.Rbf

open Idealize.ShloMosaic Idealize.ShloMosaic.ValueIdx
open Cert.Lib.Real (IsReal)

/-- Entry (p, q) of the covariance, computed from the scaled differences. -/
def directAt (x xx : (⟨2, ![4096, 16]⟩ : Shape).Idx → EReal) (s : (⟨1, ![16]⟩ : Shape).Idx → EReal)
    (v : (⟨0, ![]⟩ : Shape).Idx → EReal) (p q : Fin 4096) : EReal :=
  Ideal.exp (Ideal.ofBits .f32 0xBF000000#32 * (Ideal.ofBits .f32 0x00000000#32 + ∑ k : Fin 16,
      Ideal.div (x (ix2 p k) - xx (ix2 q k)) (s (ix1 k)) * Ideal.div (x (ix2 p k) - xx (ix2 q k)) (s (ix1 k)))) * v ix0

/-- Entry (p, q) of the covariance, computed from the product of the scaled points, their half squared norms and log v. -/
def expandedAt (x xx : (⟨2, ![4096, 16]⟩ : Shape).Idx → EReal) (s : (⟨1, ![16]⟩ : Shape).Idx → EReal)
    (v : (⟨0, ![]⟩ : Shape).Idx → EReal) (p q : Fin 4096) : EReal :=
  Ideal.exp ((∑ k : Fin 16, Ideal.div (x (ix2 p k)) (s (ix1 k)) * Ideal.div (xx (ix2 q k)) (s (ix1 k)))
      + Ideal.ofBits .f32 0xBF000000#32 * (Ideal.ofBits .f32 0x00000000#32 + ∑ k : Fin 16,
          Ideal.div (x (ix2 p k)) (s (ix1 k)) * Ideal.div (x (ix2 p k)) (s (ix1 k)))
      + (Ideal.ofBits .f32 0xBF000000#32 * (Ideal.ofBits .f32 0x00000000#32 + ∑ k : Fin 16,
          Ideal.div (xx (ix2 q k)) (s (ix1 k)) * Ideal.div (xx (ix2 q k)) (s (ix1 k)))
        + Ideal.log (v ix0)))

/-- The covariance matrix, direct arrangement. -/
def direct (x xx : (⟨2, ![4096, 16]⟩ : Shape).Idx → EReal) (s : (⟨1, ![16]⟩ : Shape).Idx → EReal)
    (v : (⟨0, ![]⟩ : Shape).Idx → EReal) : (⟨2, ![4096, 4096]⟩ : Shape).Idx → EReal :=
  fun i => directAt x xx s v (i 0) (i 1)

/-- The covariance matrix, expanded arrangement. -/
def expanded (x xx : (⟨2, ![4096, 16]⟩ : Shape).Idx → EReal) (s : (⟨1, ![16]⟩ : Shape).Idx → EReal)
    (v : (⟨0, ![]⟩ : Shape).Idx → EReal) : (⟨2, ![4096, 4096]⟩ : Shape).Idx → EReal :=
  fun i => expandedAt x xx s v (i 0) (i 1)

/-- The two arrangements are one function on real points, positive real length scales and a positive real amplitude. -/
theorem expanded_eq_direct (x xx : (⟨2, ![4096, 16]⟩ : Shape).Idx → EReal) (s : (⟨1, ![16]⟩ : Shape).Idx → EReal)
    (v : (⟨0, ![]⟩ : Shape).Idx → EReal) (hx : ∀ j, IsReal (x j)) (hxx : ∀ j, IsReal (xx j))
    (hs : ∀ j, ∃ r : ℝ, 0 < r ∧ s j = (r : EReal)) (hv : ∃ r : ℝ, 0 < r ∧ v ix0 = (r : EReal)) :
    expanded x xx s v = direct x xx s v := by
  choose x' hx' using hx
  choose xx' hxx' using hxx
  choose s' hs'pos hs' using hs
  obtain ⟨ν, hν, hvν⟩ := hv
  funext i
  unfold expanded direct expandedAt directAt
  simp only [hx', hxx', hs', hvν]
  exact Cert.RbfLaw.rbf_law (fun k => x' (ix2 (i 0) k)) (fun k => xx' (ix2 (i 1) k)) (fun k => s' (ix1 k)) ν
    (fun k => (hs'pos (ix1 k)).ne') hν _ _ Cert.RbfLaw.neg_half Ideal.ofBits_zero_f32

end Cert.Rbf

end
-- ==== Proof.Tile.lean ====
/-
  The matrix the tiled region computes, as one function of the four arrays it reads: entry (p, q) is
      exp( Σ_k A(p, k) · B(q, k)  +  g(p, 0)  +  h(0, q) ).
  A 2048×2048 tile of it depends only on the rows of A, B, g and the columns of h that the tile's rows and columns
  name, which is what the body computes from its blocks. With A, B the scaled points, g the column of row terms and
  h the row of column terms this is the covariance in its expanded arrangement.
-/
import proofs.«172599_j39264591020613_2_alg».proof.Proof.Payload
import proofs.«172599_j39264591020613_2_alg».proof.Proof.HostTerms
import proofs.«172599_j39264591020613_2_alg».proof.Proof.Spec

noncomputable section

namespace Cert.Tile

open Cert.KernelIdeal Cert.KernelIdeal.Gen Idealize.ShloMosaic Idealize.ShloMosaic.ValueIdx
open Cert.HostTerms

/-- Entry (p, q) of the matrix of the four arrays. -/
def entry (A B : S4096x16.Idx → EReal) (g : S4096x1.Idx → EReal) (h : S1x4096.Idx → EReal) (p q : Fin 4096) : EReal :=
  Ideal.exp ((∑ k : Fin 16, A (ix2 p k) * B (ix2 q k)) + g (ix2 p (0 : Fin 1)) + h (ix2 (0 : Fin 1) q))

/-- The whole matrix from the four arrays. -/
def whole (A B : S4096x16.Idx → EReal) (g : S4096x1.Idx → EReal) (h : S1x4096.Idx → EReal) : S4096x4096.Idx → EReal :=
  fun i => entry A B g h (i 0) (i 1)

/-- What the body stores at (p', q') of its tile is the matrix's entry (p, q), when the body's blocks hold, at row p'
    and column q', what the arrays hold at row p and column q. -/
theorem point (A B : S4096x16.Idx → EReal) (g : S4096x1.Idx → EReal) (h : S1x4096.Idx → EReal)
    (a b : FVec Ideal S2048x16 .f32) (g' : FVec Ideal S2048x1 .f32) (h' : FVec Ideal S1x2048 .f32)
    (p' q' : Fin 2048) (p q : Fin 4096)
    (ha : ∀ k : Fin 16, a (ix2 p' k) = A (ix2 p k)) (hb : ∀ k : Fin 16, b (ix2 q' k) = B (ix2 q k))
    (hg : g' (ix2 p' (0 : Fin 1)) = g (ix2 p (0 : Fin 1)))
    (hh : h' (ix2 (0 : Fin 1) q') = h (ix2 (0 : Fin 1) q)) :
    k0_pay1 (F := Ideal) a b g' h' (ix2 p' q') = entry A B g h p q := by
  rw [Cert.KernelPayload.pay_apply]
  unfold entry
  simp only [ha, hb, hg, hh]

/-- Over the scaled points, their row terms and column terms, an entry is the covariance's, expanded. -/
theorem entry_expanded (x xx : FVec Ideal S4096x16 .f32) (s : FVec Ideal S16 .f32) (v : FVec Ideal S_ .f32)
    (p q : Fin 4096) :
    entry (scaled x s) (scaled xx s) (colTerm (scaled x s)) (rowTerm (scaled xx s) (Host.log v)) p q
      = Cert.Rbf.expandedAt x xx s v p q := by
  unfold entry Cert.Rbf.expandedAt
  rw [colTerm_apply, rowTerm_apply]
  simp only [scaled_apply]
  rfl

/-- So the matrix is the covariance in its expanded arrangement. -/
theorem whole_expanded (x xx : FVec Ideal S4096x16 .f32) (s : FVec Ideal S16 .f32) (v : FVec Ideal S_ .f32) :
    whole (scaled x s) (scaled xx s) (colTerm (scaled x s)) (rowTerm (scaled xx s) (Host.log v))
      = Cert.Rbf.expanded x xx s v :=
  funext fun i => entry_expanded x xx s v (i 0) (i 1)

end Cert.Tile

end
-- ==== Proof.Blocks.lean ====
/-
  From tiles to the array. The region's grid is 2 × 2; at point (r, s) the body reads rows 2048r … 2048r + 2047 of
  the first array and of the column of row terms, rows 2048s … of the second array and columns 2048s … of the row
  of column terms, and writes tile (r, s) of the result. Each written tile is that tile of the one whole matrix of
  the four arrays, and the four tiles cover the 4096 × 4096 result, so the result is that matrix.
-/
import proofs.«172599_j39264591020613_2_alg».proof.Proof.Gen.KernelIdeal.Value
import proofs.«172599_j39264591020613_2_alg».proof.Proof.Tile

noncomputable section

namespace Cert.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The block indices of the five windows at a grid point, in terms of the output tile's: the first array and the
    column follow the tile's row, the second array and the row follow the tile's column. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 1 ∧ win0_4.index t (1 : Fin 2) ≤ 1 :=
  (by decide +kernel : ∀ t : Fin grid0.N, _)

/-- Every tile is some grid point's. -/
theorem tile_onto : ∀ (q0 q1 : Fin 2), ∃ t : Fin cfg0.N, win0_4.index t = ![q0.val, q1.val] :=
  (by decide +kernel : ∀ (q0 q1 : Fin 2), ∃ t : Fin grid0.N, win0_4.index t = ![q0.val, q1.val])

/-- The first window's block at a point, read at `x`, is its array at the block's offset plus `x`. -/
theorem block0_apply (c : Dev nD) (t : Fin cfg0.N) (x : S2048x16.Idx) (k : S4096x16.Idx)
    (hk0 : (k 0).val = win0_0.index t (0 : Fin 2) * 2048 + (x 0).val)
    (hk1 : (k 1).val = win0_0.index t (1 : Fin 2) * 16 + (x 1).val) :
    (iblk m c 0 t : FVec Ideal S2048x16 .f32) x = (V m c main_v5 : S4096x16.Idx → EReal) k := by
  unfold iblk
  rw [View.read_apply]
  show (V m c main_v5 : S4096x16.Idx → EReal) _ = (V m c main_v5 : S4096x16.Idx → EReal) k
  refine congrArg (V m c main_v5 : S4096x16.Idx → EReal) (funext fun a => Fin.ext ?_)
  match a with
  | ⟨0, _⟩ => show win0_0.index t (0 : Fin 2) * 2048 + 1 * (x 0).val = (k 0).val; omega
  | ⟨1, _⟩ => show win0_0.index t (1 : Fin 2) * 16 + 1 * (x 1).val = (k 1).val; omega

/-- The second window's block likewise. -/
theorem block1_apply (c : Dev nD) (t : Fin cfg0.N) (x : S2048x16.Idx) (k : S4096x16.Idx)
    (hk0 : (k 0).val = win0_1.index t (0 : Fin 2) * 2048 + (x 0).val)
    (hk1 : (k 1).val = win0_1.index t (1 : Fin 2) * 16 + (x 1).val) :
    (iblk m c 1 t : FVec Ideal S2048x16 .f32) x = (V m c main_v8 : S4096x16.Idx → EReal) k := by
  unfold iblk
  rw [View.read_apply]
  show (V m c main_v8 : S4096x16.Idx → EReal) _ = (V m c main_v8 : S4096x16.Idx → EReal) k
  refine congrArg (V m c main_v8 : S4096x16.Idx → EReal) (funext fun a => Fin.ext ?_)
  match a with
  | ⟨0, _⟩ => show win0_1.index t (0 : Fin 2) * 2048 + 1 * (x 0).val = (k 0).val; omega
  | ⟨1, _⟩ => show win0_1.index t (1 : Fin 2) * 16 + 1 * (x 1).val = (k 1).val; omega

/-- The third window's block (a piece of the column). -/
theorem block2_apply (c : Dev nD) (t : Fin cfg0.N) (x : S2048x1.Idx) (k : S4096x1.Idx)
    (hk0 : (k 0).val = win0_2.index t (0 : Fin 2) * 2048 + (x 0).val)
    (hk1 : (k 1).val = win0_2.index t (1 : Fin 2) * 1 + (x 1).val) :
    (iblk m c 2 t : FVec Ideal S2048x1 .f32) x = (V m c main_v17 : S4096x1.Idx → EReal) k := by
  unfold iblk
  rw [View.read_apply]
  show (V m c main_v17 : S4096x1.Idx → EReal) _ = (V m c main_v17 : S4096x1.Idx → EReal) k
  refine congrArg (V m c main_v17 : S4096x1.Idx → EReal) (funext fun a => Fin.ext ?_)
  match a with
  | ⟨0, _⟩ => show win0_2.index t (0 : Fin 2) * 2048 + 1 * (x 0).val = (k 0).val; omega
  | ⟨1, _⟩ => show win0_2.index t (1 : Fin 2) * 1 + 1 * (x 1).val = (k 1).val; omega

/-- The fourth window's block (a piece of the row). -/
theorem block3_apply (c : Dev nD) (t : Fin cfg0.N) (x : S1x2048.Idx) (k : S1x4096.Idx)
    (hk0 : (k 0).val = win0_3.index t (0 : Fin 2) * 1 + (x 0).val)
    (hk1 : (k 1).val = win0_3.index t (1 : Fin 2) * 2048 + (x 1).val) :
    (iblk m c 3 t : FVec Ideal S1x2048 .f32) x = (V m c main_v21 : S1x4096.Idx → EReal) k := by
  unfold iblk
  rw [View.read_apply]
  show (V m c main_v21 : S1x4096.Idx → EReal) _ = (V m c main_v21 : S1x4096.Idx → EReal) k
  refine congrArg (V m c main_v21 : S1x4096.Idx → EReal) (funext fun a => Fin.ext ?_)
  match a with
  | ⟨0, _⟩ => show win0_3.index t (0 : Fin 2) * 1 + 1 * (x 0).val = (k 0).val; omega
  | ⟨1, _⟩ => show win0_3.index t (1 : Fin 2) * 2048 + 1 * (x 1).val = (k 1).val; omega

/-- The whole matrix of the four arrays as the region finds them. -/
abbrev matrix (c : Dev nD) : S4096x4096.Idx → EReal :=
  Cert.Tile.whole (V m c main_v5) (V m c main_v8) (V m c main_v17) (V m c main_v21)

/-- What a grid point writes back is its tile of the matrix. -/
theorem flushed_eq (c : Dev nD) (t : Fin cfg0.N) :
    (dats m 0 c).flushed 4 t = ((cfg0.win 4).blk t).view.read (Elt Ideal) (matrix m c) := by
  rw [Cert.KernelIdeal.Value.flushed4]
  unfold out0_4
  rw [View.canon_unit_zero zero_off]
  simp only [View.ld_unit_zero (S := S2048x16) zero_off, View.ld_unit_zero (S := S2048x1) zero_off,
    View.ld_unit_zero (S := S1x2048) zero_off]
  obtain ⟨e00, e01, e10, e11, e20, e21, e30, e31, b0, b1⟩ := block_indices t
  funext y
  obtain ⟨p', q', rfl⟩ : ∃ (p' q' : Fin 2048), y = ix2 p' q' := ⟨y 0, y 1, eq_ix2 y⟩
  have hp' : p'.val < 2048 := p'.isLt
  have hq' : q'.val < 2048 := q'.isLt
  -- the tile's entry (p', q') sits at row 2048·r + p' and column 2048·s + q' of the result
  obtain ⟨P, hP⟩ : ∃ P : Fin 4096, P.val = win0_4.index t (0 : Fin 2) * 2048 + p'.val := ⟨⟨_, by omega⟩, rfl⟩
  obtain ⟨Q, hQ⟩ : ∃ Q : Fin 4096, Q.val = win0_4.index t (1 : Fin 2) * 2048 + q'.val := ⟨⟨_, by omega⟩, rfl⟩
  have hemb : ((cfg0.win 4).blk t).view.emb (ix2 p' q') = (ix2 P Q : S4096x4096.Idx) :=
    funext fun a => Fin.ext (by
      match a with
      | ⟨0, _⟩ => show win0_4.index t (0 : Fin 2) * 2048 + 1 * p'.val = P.val; omega
      | ⟨1, _⟩ => show win0_4.index t (1 : Fin 2) * 2048 + 1 * q'.val = Q.val; omega)
  rw [View.read_apply, hemb]
  show k0_pay1 (F := Ideal) (iblk m c 0 t) (iblk m c 1 t) (iblk m c 2 t) (iblk m c 3 t) (ix2 p' q')
      = Cert.Tile.entry (V m c main_v5) (V m c main_v8) (V m c main_v17) (V m c main_v21) P Q
  refine Cert.Tile.point (V m c main_v5) (V m c main_v8) (V m c main_v17) (V m c main_v21)
    (iblk m c 0 t) (iblk m c 1 t) (iblk m c 2 t) (iblk m c 3 t) p' q' P Q ?_ ?_ ?_ ?_
  · intro k
    refine block0_apply m c t (ix2 p' k) (ix2 P k) ?_ ?_
    · show P.val = win0_0.index t (0 : Fin 2) * 2048 + p'.val
      rw [e00, hP]
    · show k.val = win0_0.index t (1 : Fin 2) * 16 + k.val
      rw [e01]; omega
  · intro k
    refine block1_apply m c t (ix2 q' k) (ix2 Q k) ?_ ?_
    · show Q.val = win0_1.index t (0 : Fin 2) * 2048 + q'.val
      rw [e10, hQ]
    · show k.val = win0_1.index t (1 : Fin 2) * 16 + k.val
      rw [e11]; omega
  · refine block2_apply m c t (ix2 p' (0 : Fin 1)) (ix2 P (0 : Fin 1)) ?_ ?_
    · show P.val = win0_2.index t (0 : Fin 2) * 2048 + p'.val
      rw [e20, hP]
    · show (0 : ℕ) = win0_2.index t (1 : Fin 2) * 1 + 0
      rw [e21]
  · refine block3_apply m c t (ix2 (0 : Fin 1) q') (ix2 (0 : Fin 1) Q) ?_ ?_
    · show (0 : ℕ) = win0_3.index t (0 : Fin 2) * 1 + 0
      rw [e30]
    · show Q.val = win0_3.index t (1 : Fin 2) * 2048 + q'.val
      rw [e31, hQ]

/-- An index of the result is in a point's tile iff each coordinate is in the tile's range. -/
theorem mem_tile (t : Fin cfg0.N) (i : S4096x4096.Idx) :
    i ∈ ((cfg0.win 4).blk t).view.set ↔ ∀ a : Fin 2, win0_4.index t a * S2048x2048.size a ≤ (i a).val
      ∧ (i a).val < win0_4.index t a * S2048x2048.size a + S2048x2048.size a := by
  show i ∈ ((View.whole main_v22).slice (win0_4.rect t)).set ↔ _
  rw [View.set_slice_whole, Rect.mem_set_unit]
  exact Iff.rfl

/-- The four tiles cover the result. -/
theorem tiles_cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := tile_onto ⟨(i 0).val / 2048, by omega⟩ ⟨(i 1).val / 2048, by omega⟩
  have q0 : win0_4.index t (0 : Fin 2) = (i 0).val / 2048 := congrFun ht 0
  have q1 : win0_4.index t (1 : Fin 2) = (i 1).val / 2048 := congrFun ht 1
  refine ⟨t, flush0_4 t, ?_⟩
  rw [mem_tile]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 2048 ≤ (i 1).val ∧ (i 1).val < win0_4.index t (1 : Fin 2) * 2048 + 2048
    omega

/-- The result array after the run is the matrix of the four arrays. -/
theorem final (c : Dev nD) : (dats m 0 c).arrAt 4 cfg0.N = matrix m c :=
  (dats m 0 c).arrAt_eq_of_cover 4 (matrix m c) (fun t _ => flushed_eq m c t) tiles_cover

end Cert.Blocks

end
-- ==== Proof.LibSoftplus.lean ====
/-
  softplus, as jax spells it, over a whole array.

  jax.nn.softplus(a) is logaddexp(a, 0): with c the array of zeros,
      select(a - c ≠ a - c,  a + c,  max(a, c) + log1p(exp(-|a - c|))).
  On the extended reals nothing differs from itself, so the guard never fires, and at a real entry the value is
  max(r, 0) + log(1 + exp(-|r|)), a positive real.
-/
import proofs.«172599_j39264591020613_2_alg».proof.Proof.RbfLaw
import Idealize.ShloMosaic.Lib.ValueIdx
import Idealize.ShloMosaic.PureOps.Ideal.Laws
import Idealize.ShloMosaic.Lib.Pipeline.Value

noncomputable section

namespace Cert.LibSoftplus

open Idealize.ShloMosaic Idealize.ShloMosaic.ValueIdx

/-- softplus over an array `a`, with `c` the array of zeros the spelling subtracts, adds and compares with. -/
def softplusOf {F : FTy → Type} [FloatOps F] {s : Shape} (c a : FVec F s .f32) : FVec F s .f32 :=
  select (cmpf .une (subf a c) (subf a c)) (addf a c)
    (addf (maximumf a c) (Host.log1p (Host.exp (Host.negf (Host.absf (subf a c))))))

/-- At the exact values each entry is the one-element softplus of the entries. -/
theorem softplusOf_apply {s : Shape} (c a : FVec Ideal s .f32) (i : s.Idx) :
    softplusOf c a i = Cert.RbfLaw.spElt (c i) (a i) := rfl

/-- Over zeros, at a real entry, softplus is a positive real. -/
theorem softplusOf_pos {s : Shape} (c a : FVec Ideal s .f32) (i : s.Idx) (hc : c i = 0) (r : ℝ) (ha : a i = (r : EReal)) :
    ∃ p : ℝ, 0 < p ∧ softplusOf c a i = (p : EReal) := by
  rw [softplusOf_apply, hc, ha]
  exact Cert.RbfLaw.spElt_pos r

/-- The scalar zero broadcast to any shape is zero everywhere. -/
theorem bcast_zero_apply {t : Shape} (h : (⟨0, ![]⟩ : Shape).BroadcastsInDim t (![] : Fin 0 → Fin t.rank)) (j : t.Idx) :
    broadcastInDim t ![] h (constant (F := Ideal) (⟨0, ![]⟩ : Shape) .f32 0x00000000#32) j = 0 := by
  rw [broadcastInDim_apply _ h _ j ix0 (fun a => a.elim0)]
  exact Ideal.ofBits_zero_f32

end Cert.LibSoftplus

end
-- ==== Proof.HostPrefix.lean ====
/-
  The four arrays the tiled region reads, as the region finds them: the scaled points, the scaled second points, the
  column of row terms and the row of column terms, each the stated function of the argument arrays (the length
  scales and the amplitude being the softplus of the third and fourth arguments).
-/
import proofs.«172599_j39264591020613_2_alg».proof.Proof.Gen.KernelIdeal.Frame
import proofs.«172599_j39264591020613_2_alg».proof.Proof.HostTerms
import proofs.«172599_j39264591020613_2_alg».proof.Proof.LibSoftplus
import Idealize.ShloMosaic.Lib.StableHlo.Run

noncomputable section

namespace Cert.HostPrefix

open Cert.KernelIdeal Cert.KernelIdeal.Gen Idealize.ShloMosaic Idealize.ShloMosaic.TcCoe Idealize.SL.Sem
open Idealize.ShloMosaic.StableHlo
open Cert.HostTerms Cert.LibSoftplus

variable (m : (ℓ : Loc nD τ sig) → Buf (Elt Ideal) ℓ)

/-- The length scales: softplus of the third argument. -/
def scales (c : Dev nD) : FVec Ideal S16 .f32 :=
  softplusOf (broadcastInDim S16 ![] bcast_S_S16 (constant (F := Ideal) S_ .f32 0x00000000#32))
    (m ((c : Thread nD τ).loc main_arg2))

/-- The amplitude: softplus of the fourth argument. -/
def amplitude (c : Dev nD) : FVec Ideal S_ .f32 :=
  softplusOf (constant (F := Ideal) S_ .f32 0x00000000#32) (m ((c : Thread nD τ).loc main_arg3))

set_option maxRecDepth 8192 in
set_option maxHeartbeats 2000000 in
/-- The first window's array: the scaled points. -/
theorem entry_points (c : Dev nD) :
    (V m c main_v5 : S4096x16.Idx → EReal) = scaled (m ((c : Thread nD τ).loc main_arg0)) (scales m c) := by
  dsimp only [Gen.V]
  simp only [Gen.hostOps0, Gen.hostOps0_1, Gen.hostOps0_2, List.flatten_cons, List.flatten_nil, List.append_nil,
    List.cons_append, List.nil_append]
  after_results_simp
  rfl

set_option maxRecDepth 8192 in
set_option maxHeartbeats 2000000 in
/-- The second window's array: the scaled second points. -/
theorem entry_points' (c : Dev nD) :
    (V m c main_v8 : S4096x16.Idx → EReal) = scaled (m ((c : Thread nD τ).loc main_arg1)) (scales m c) := by
  dsimp only [Gen.V]
  simp only [Gen.hostOps0, Gen.hostOps0_1, Gen.hostOps0_2, List.flatten_cons, List.flatten_nil, List.append_nil,
    List.cons_append, List.nil_append]
  after_results_simp
  rfl

set_option maxRecDepth 8192 in
set_option maxHeartbeats 2000000 in
/-- The third window's array: the column of row terms of the scaled points. -/
theorem entry_col (c : Dev nD) :
    (V m c main_v17 : S4096x1.Idx → EReal)
      = colTerm (scaled (m ((c : Thread nD τ).loc main_arg0)) (scales m c)) := by
  dsimp only [Gen.V]
  simp only [Gen.hostOps0, Gen.hostOps0_1, Gen.hostOps0_2, List.flatten_cons, List.flatten_nil, List.append_nil,
    List.cons_append, List.nil_append]
  after_results_simp
  rfl

set_option maxRecDepth 8192 in
set_option maxHeartbeats 2000000 in
/-- The fourth window's array: the row of column terms of the scaled second points, with the logarithm of the amplitude. -/
theorem entry_row (c : Dev nD) :
    (V m c main_v21 : S1x4096.Idx → EReal)
      = rowTerm (scaled (m ((c : Thread nD τ).loc main_arg1)) (scales m c)) (Host.log (amplitude m c)) := by
  dsimp only [Gen.V]
  simp only [Gen.hostOps0, Gen.hostOps0_1, Gen.hostOps0_2, List.flatten_cons, List.flatten_nil, List.append_nil,
    List.cons_append, List.nil_append]
  after_results_simp
  rfl

end Cert.HostPrefix

end
-- ==== Proof.RefRead.lean ====
/-
  The reference program's result, read index by index: entry (p, q) is
      exp(-½ · (0 + Σ_k ((x(p,k) - xx(q,k)) / s(k))²)) · v
  with s the softplus of the third argument and v the softplus of the fourth — the covariance in its direct
  arrangement.
-/
import proofs.«172599_j39264591020613_2_alg».proof.Proof.Gen.ReferenceIdeal.Read
import proofs.«172599_j39264591020613_2_alg».proof.Proof.Spec
import proofs.«172599_j39264591020613_2_alg».proof.Proof.LibSoftplus

noncomputable section

namespace Cert.RefRead

open Cert.ReferenceIdeal Cert.ReferenceIdeal.Gen Cert.ReferenceIdeal.Read Idealize.ShloMosaic Idealize.ShloMosaic.ValueIdx
open Cert.LibSoftplus (softplusOf)

/-- The length scales are the softplus of the third argument. -/
theorem scales_eq (x2 : FVec Ideal S16 .f32) :
    val_main_v0 (F := Ideal) x2
      = softplusOf (broadcastInDim S16 ![] bcast_S_S16 (constant (F := Ideal) S_ .f32 0x00000000#32)) x2 := rfl

/-- The amplitude is the softplus of the fourth argument. -/
theorem amplitude_eq (x3 : FVec Ideal S_ .f32) :
    val_main_v1 (F := Ideal) x3 = softplusOf (constant (F := Ideal) S_ .f32 0x00000000#32) x3 := rfl

/-- The reference's result is the covariance in its direct arrangement. -/
theorem result_direct (x0 x1 : FVec Ideal S4096x16 .f32) (x2 : FVec Ideal S16 .f32) (x3 : FVec Ideal S_ .f32) :
    val_main_v16 (F := Ideal) x0 x1 x2 x3
      = Cert.Rbf.direct x0 x1 (val_main_v0 (F := Ideal) x2) (val_main_v1 (F := Ideal) x3) := by
  funext i
  obtain ⟨p, q, rfl⟩ : ∃ (p : Fin 4096) (q : Fin 4096), i = ix2 p q := ⟨i 0, i 1, eq_ix2 i⟩
  have e0 : ∀ k : Fin 16, idx_main_v2 (idx_main_v4 (idx_main_v11 (ix2 p q) k)) = ix2 p k := fun k =>
    funext fun a => Fin.ext (by match a with | ⟨0, _⟩ => rfl | ⟨1, _⟩ => rfl)
  have e1 : ∀ k : Fin 16, idx_main_v3 (idx_main_v5 (idx_main_v11 (ix2 p q) k)) = ix2 q k := fun k =>
    funext fun a => Fin.ext (by match a with | ⟨0, _⟩ => rfl | ⟨1, _⟩ => rfl)
  have e2 : ∀ k : Fin 16, idx_main_v7 (idx_main_v8 (idx_main_v11 (ix2 p q) k)) = ix1 k := fun k =>
    funext fun a => Fin.ext (by match a with | ⟨0, _⟩ => rfl)
  rw [val_main_v16_apply, val_main_v14_apply, val_main_v13_apply, val_main_v12_apply, val_main_cst_0_apply,
    val_main_v11_apply, val_main_cst_apply, val_main_v15_apply]
  simp only [val_main_v10_apply, val_main_v9_apply, val_main_v6_apply, val_main_v4_apply, val_main_v2_apply,
    val_main_v5_apply, val_main_v3_apply, val_main_v8_apply, val_main_v7_apply, e0, e1, e2]
  show _ = Cert.Rbf.directAt x0 x1 (val_main_v0 (F := Ideal) x2) (val_main_v1 (F := Ideal) x3) p q
  unfold Cert.Rbf.directAt
  simp only [Ideal.mulf_def, Ideal.hostUnary_exp_def, Ideal.hostDivf_def, Ideal.subf_def, Ideal.ofBits_def]

end Cert.RefRead

end
-- ==== Proof.LibFinite.lean ====
/-
  From "every entry has absolute value below +∞" (a precondition's all-reduce by "and" of the comparisons
  |a| < +∞, stated to be 1) to "every entry is a real number", for an array of any shape on the extended reals.
-/
import Idealize.ShloMosaic.Lib.ReduceAll
import Idealize.ShloMosaic.PureOps.Ideal
import Idealize.ShloMosaic.PureOps.Ideal.Laws
import Idealize.ShloMosaic.Lib.ValueIdx
import Idealize.ShloMosaic.Lib.Pipeline.Value
import proofs.«172599_j39264591020613_2_alg».proof.Proof.LibReal

noncomputable section

namespace Cert.Lib.Finite

open Idealize.ShloMosaic
open Cert.Lib.Real (IsReal)

/-- The scalar shape. -/
abbrev S0 : Shape := ⟨0, ![]⟩

/-- The scalar shape has one index. -/
instance : Subsingleton S0.Idx := ⟨fun _ _ => funext fun d => d.elim0⟩

/-- The f32 pattern of +∞ is the top element. -/
theorem ofBits_inf : Ideal.ofBits .f32 0x7F800000#32 = ⊤ := by simp [Ideal.ofBits, Ideal.ieee]

/-- An extended real whose absolute value is below +∞ is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- If the all-reduce by "and" of the comparisons |a| < +∞ is 1, every entry of a is a real number. -/
theorem allReal_of_all_finite {s : Shape} {axes : List (Fin s.rank)} (a : FVec Ideal s .f32)
    (hb : S0.BroadcastsInDim s (![] : Fin 0 → Fin s.rank)) (red : s.ReducesTo axes S0) (hu : 0 < S0.numel)
    (e : Host.reduce IntOp.andi
          (cmpf .olt (Host.absf a) (broadcastInDim s ![] hb (constant (F := Ideal) S0 .f32 0x7F800000#32)))
          (constantI S0 1 1#1) red hu ValueIdx.ix0 = 1#1) : ∀ i, IsReal (a i) := by
  intro i
  have h1 := Host.reduce_andi_all _ _ red hu _ e i
  have h2 : broadcastInDim s ![] hb (constant (F := Ideal) S0 .f32 0x7F800000#32) i = ⊤ := by
    rw [broadcastInDim_apply _ hb _ i ValueIdx.ix0 (fun a => a.elim0)]
    exact ofBits_inf
  have h3 : Ideal.cmp .olt (max (a i) (-(a i))) ⊤ = 1#1 := by
    rw [← h2]; exact h1
  exact isReal_of_abs_lt_top _ h3

end Cert.Lib.Finite

end
-- ==== Proof.Finite.lean ====
/-
  The precondition, opened: "every input's absolute value is below +∞" — four all-reductions by "and" of the
  comparisons |a| < +∞, conjoined — says that every entry of each of the four argument arrays is a real number.
-/
import proofs.«172599_j39264591020613_2_alg».proof.Proof.LibFinite
import proofs.«172599_j39264591020613_2_alg».proof.Pre_finite_inputs
import Idealize.ShloMosaic.Lib.Affine

noncomputable section

namespace Cert.FiniteArgs

open Idealize.ShloMosaic Idealize.ShloMosaic.ValueIdx
open Cert.Lib.Real (IsReal)
open Cert.Lib.Finite (allReal_of_all_finite isReal_of_abs_lt_top ofBits_inf)

/-- If the precondition's predicate is 1, the points, the second points, the raw length scales and the raw amplitude
    are arrays of real numbers. -/
theorem args_real [Cert.Pre_finite_inputs.Facts]
    (a0 a1 : FVec Ideal Cert.Pre_finite_inputs.S4096x16 .f32) (a2 : FVec Ideal Cert.Pre_finite_inputs.S16 .f32)
    (a3 : FVec Ideal Cert.Pre_finite_inputs.S_ .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ix0
  dsimp only [Cert.Pre_finite_inputs.fn, Cert.Pre_finite_inputs.fn_part1] at h0
  obtain ⟨h123, h4⟩ := IntOp.andi_eq_one.mp h0
  obtain ⟨h12, h3⟩ := IntOp.andi_eq_one.mp h123
  obtain ⟨h1, h2⟩ := IntOp.andi_eq_one.mp h12
  refine ⟨allReal_of_all_finite a0 _ _ _ h1, allReal_of_all_finite a1 _ _ _ h2, allReal_of_all_finite a2 _ _ _ h3, ?_⟩
  intro i
  have h5 := Host.reduce_andi_all _ _ _ _ _ h4 i
  have h6 : Ideal.cmp .olt (max (a3 i) (-(a3 i))) ⊤ = 1#1 := by
    rw [← ofBits_inf]; exact h5
  exact isReal_of_abs_lt_top _ h6

end Cert.FiniteArgs

end
-- ==== Proof.lean ====
/-
  The squared-exponential (RBF) covariance matrix of two sets of 4096 points in 16 dimensions,
      K(p, q) = exp(-½ · Σ_k ((x(p,k) - xx(q,k)) / s(k))²) · v,
  with length scales s = softplus(scale_ff) and amplitude v = softplus(variance_ff).

  The reference computes it as written, from the 4096 × 4096 × 16 array of scaled differences. The kernel expands
  the square: on the host it scales the points, y = x / s and y' = xx / s, and prepares a column of row terms
  g(p) = -½ Σ_k y(p,k)² and a row of column terms h(q) = -½ Σ_k y'(q,k)² + log v; a 2 × 2 grid of 2048 × 2048
  tiles then computes exp(y · y'ᵀ + g + h) tile by tile. On the extended reals the two agree wherever every input
  is finite: then s and v are positive reals (softplus of a real is positive), every intermediate value is a real,
  ‖u - w‖² = ‖u‖² - 2 u·w + ‖w‖², and exp(E + log v) = exp(E) · v.

  The proof: each written tile is a tile of one whole matrix of the four arrays the region reads, and the tiles
  cover the result (Blocks); those four arrays are the stated functions of the arguments (HostPrefix), so the
  matrix is the covariance in its expanded arrangement (Tile); the reference's result is the covariance in its
  direct arrangement (RefRead); the precondition makes every argument entry real (Finite); and the two arrangements
  agree on reals with positive parameters (Spec, RbfLaw). The three frames are the generated ones; the kernel has no
  idealization rewrite, so the fourth claim is trivial.
-/
import proofs.«172599_j39264591020613_2_alg».proof.Defs
import proofs.«172599_j39264591020613_2_alg».proof.Proof.Gen.Kernel
import proofs.«172599_j39264591020613_2_alg».proof.Proof.Gen.Kernel.Skeleton
import proofs.«172599_j39264591020613_2_alg».proof.Proof.Gen.Kernel.Launch
import proofs.«172599_j39264591020613_2_alg».proof.Proof.Gen.Kernel.Points
import proofs.«172599_j39264591020613_2_alg».proof.Proof.Gen.Kernel.Frame
import proofs.«172599_j39264591020613_2_alg».proof.Proof.Gen.KernelIdeal
import proofs.«172599_j39264591020613_2_alg».proof.Proof.Gen.KernelIdeal.Skeleton
import proofs.«172599_j39264591020613_2_alg».proof.Proof.Gen.KernelIdeal.Launch
import proofs.«172599_j39264591020613_2_alg».proof.Proof.Gen.KernelIdeal.Points
import proofs.«172599_j39264591020613_2_alg».proof.Proof.Gen.KernelIdeal.Frame
import proofs.«172599_j39264591020613_2_alg».proof.Proof.Gen.ReferenceIdeal
import proofs.«172599_j39264591020613_2_alg».proof.Proof.Gen.Pre_finite_inputs
import proofs.«172599_j39264591020613_2_alg».proof.Proof.Gen.KernelIdeal.Value
import proofs.«172599_j39264591020613_2_alg».proof.Proof.Gen.ReferenceIdeal.Run
import proofs.«172599_j39264591020613_2_alg».proof.Proof.Gen.ReferenceIdeal.Read
import proofs.«172599_j39264591020613_2_alg».proof.Proof.Blocks
import proofs.«172599_j39264591020613_2_alg».proof.Proof.HostPrefix
import proofs.«172599_j39264591020613_2_alg».proof.Proof.RefRead
import proofs.«172599_j39264591020613_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx
open Cert.Lib.Real (IsReal)

/-! ## The kernel's result -/

section KernelValue

open Cert.KernelIdeal Cert.KernelIdeal.Gen Cert.HostPrefix Cert.HostTerms Cert.LibSoftplus

variable (m : (ℓ : Loc nD τ sig) → Buf (Elt Ideal) ℓ)

/-- The covariance of the argument arrays, the value both programs end with. -/
def cov (c : Dev nD) : S4096x4096.Idx → EReal :=
  Cert.Rbf.direct (m ((c : Thread nD τ).loc main_arg0)) (m ((c : Thread nD τ).loc main_arg1)) (scales m c) (amplitude m c)

/-- The length scales of real raw scales are positive reals. -/
theorem scales_pos (c : Dev nD) (h : ∀ j, IsReal (m ((c : Thread nD τ).loc main_arg2) j)) (j : S16.Idx) :
    ∃ r : ℝ, 0 < r ∧ scales m c j = (r : EReal) := by
  obtain ⟨r, hr⟩ := h j
  exact softplusOf_pos _ _ j (bcast_zero_apply _ j) r hr

/-- The amplitude of a real raw amplitude is a positive real. -/
theorem amplitude_pos (c : Dev nD) (h : ∀ j, IsReal (m ((c : Thread nD τ).loc main_arg3) j)) :
    ∃ r : ℝ, 0 < r ∧ amplitude m c ix0 = (r : EReal) := by
  obtain ⟨r, hr⟩ := h ix0
  exact softplusOf_pos _ _ ix0 Ideal.ofBits_zero_f32 r hr

/-- After the run the kernel's result array is the covariance, when every input is finite. -/
theorem kernel_value [Cert.Pre_finite_inputs.Facts] (c : Dev nD)
    (hpre : Cert.Pre_finite_inputs.fn (F := Ideal) (m ((c : Thread nD τ).loc main_arg0))
      (m ((c : Thread nD τ).loc main_arg1)) (m ((c : Thread nD τ).loc main_arg2))
      (m ((c : Thread nD τ).loc main_arg3)) = fun _ => 1#1) :
    (dats m 0 c).arrAt 4 cfg0.N = cov m c := by
  obtain ⟨h0, h1, h2, h3⟩ := Cert.FiniteArgs.args_real _ _ _ _ hpre
  have e : Cert.Blocks.matrix m c
      = Cert.Tile.whole (scaled (m ((c : Thread nD τ).loc main_arg0)) (scales m c))
          (scaled (m ((c : Thread nD τ).loc main_arg1)) (scales m c))
          (colTerm (scaled (m ((c : Thread nD τ).loc main_arg0)) (scales m c)))
          (rowTerm (scaled (m ((c : Thread nD τ).loc main_arg1)) (scales m c)) (Host.log (amplitude m c))) :=
    congr (congr (congr (congrArg Cert.Tile.whole (entry_points m c)) (entry_points' m c)) (entry_col m c)) (entry_row m c)
  rw [Cert.Blocks.final, e, Cert.Tile.whole_expanded]
  exact Cert.Rbf.expanded_eq_direct _ _ _ _ h0 h1 (scales_pos m c h2) (amplitude_pos m c h3)

end KernelValue

/-! ## The claims -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- Both programs, from memories that agree on the arguments, end with the covariance of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => cov m c, ?_, ?_⟩
  · exact (θ_run Cert.KernelIdeal.defs _ _).mono
      (fun r h c => ⟨(h c).1.trans (kernel_value m c (hpre c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.RefRead.result_direct,
      (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
